-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v8) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_v23) = v1 c
          ∧ r.2.mem ((c.tc : Thread Cert.ReferenceIdeal.nD Cert.ReferenceIdeal.τ).loc Cert.ReferenceIdeal.main_v30) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x256 : Shape := ⟨2, ![131072, 256]⟩
abbrev S512x256 : Shape := ⟨2, ![512, 256]⟩
abbrev S_ : Shape := ⟨0, ![]⟩

class Facts : Prop where
  bcast_S_S131072x256 : S_.BroadcastsInDim S131072x256 (![] : Fin 0 → Fin S131072x256.rank)
  reducesTo_S131072x256_S_d0_1 : S131072x256.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_

variable [Facts]

def fn {F : FTy → Type} [FloatOps F] (main_arg0 : FVec F S131072x256 .f32) (main_arg1 : FVec F S512x256 .f32) (main_arg2 : FVec F S512x256 .f32) : IVec S_ 1 :=
  let main_v0 : FVec F S131072x256 .f32 := Host.absf main_arg0
  let main_cst : FVec F S_ .f32 := constant S_ .f32 0x7F800000#32
  let main_v1 : FVec F S131072x256 .f32 := broadcastInDim S131072x256 ![] bcast_S_S131072x256 main_cst
  let main_v2 : IVec S131072x256 1 := cmpf .olt main_v0 main_v1
  let main_c : IVec S_ 1 := constantI S_ 1 1#1
  let main_v3 : IVec S_ 1 := (fun x v => Host.reduce IntOp.andi x v reducesTo_S131072x256_S_d0_1 h_S_) main_v2 main_c
  let main_v4 : FVec F S512x256 .f32 := Host.absf main_arg1
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S512x256 .f32 := Host.absf main_arg2
  let main_cst_2 : FVec F S_ .f32 := constant S_ .f32 0x7F800000#32
  let main_v10 : FVec F S512x256 .f32 := broadcastInDim S512x256 ![] bcast_S_S512x256 main_cst_2
  let main_v11 : IVec S512x256 1 := cmpf .olt main_v9 main_v10
  let main_c_3 : IVec S_ 1 := constantI S_ 1 1#1
  let main_v12 : IVec S_ 1 := (fun x v => Host.reduce IntOp.andi x v reducesTo_S512x256_S_d0_1 h_S_) main_v11 main_c_3
  let main_v13 : IVec S_ 1 := andi main_v8 main_v12
  main_v13
-- ==== Kernel.lean ====
abbrev S131072x256 : Shape := ⟨2, ![131072, 256]⟩
abbrev S512x256 : Shape := ⟨2, ![512, 256]⟩
abbrev S131072x512 : Shape := ⟨2, ![131072, 512]⟩
abbrev S1024x256 : Shape := ⟨2, ![1024, 256]⟩
abbrev S1024x512 : Shape := ⟨2, ![1024, 512]⟩
abbrev S1024 : Shape := ⟨1, ![1024]⟩
abbrev S1024x1 : Shape := ⟨2, ![1024, 1]⟩
abbrev S512 : Shape := ⟨1, ![512]⟩
abbrev S512x1 : Shape := ⟨2, ![512, 1]⟩
abbrev S256x512 : Shape := ⟨2, ![256, 512]⟩
abbrev S131071x256 : Shape := ⟨2, ![131071, 256]⟩
abbrev S_ : Shape := ⟨0, ![]⟩
abbrev S131071 : Shape := ⟨1, ![131071]⟩

abbrev nBuf : Space → Nat
  | .hbm => 15
  | .vmem => 8
  | .smem => 0
  | _ => 0

abbrev bufTy : (tb : Table) → Fin (tcTables nBuf tb) → BufTy
  | .hbm, ⟨0, _⟩ => ⟨S131072x256, .f32⟩
  | .hbm, ⟨1, _⟩ => ⟨S512x256, .f32⟩
  | .hbm, ⟨2, _⟩ => ⟨S512x256, .f32⟩
  | .hbm, ⟨3, _⟩ => ⟨S131072x256, .f32⟩
  | .hbm, ⟨4, _⟩ => ⟨S131072x512, .f32⟩
  | .hbm, ⟨5, _⟩ => ⟨S131071x256, .f32⟩
  | .hbm, ⟨6, _⟩ => ⟨S131071x256, .f32⟩
  | .hbm, ⟨7, _⟩ => ⟨S131071x256, .f32⟩
  | .hbm, ⟨8, _⟩ => ⟨S131071x256, .f32⟩
  | .hbm, ⟨9, _⟩ => ⟨S_, .f32⟩
  | .hbm, ⟨10, _⟩ => ⟨S131071, .f32⟩
  | .hbm, ⟨11, _⟩ => ⟨S131071, .f32⟩
  | .hbm, ⟨12, _⟩ => ⟨S_, .f32⟩
  | .hbm, ⟨13, _⟩ => ⟨S131071, .f32⟩
  | .hbm, ⟨14, _⟩ => ⟨S131071, .i1⟩
  | .local _ .vmem, ⟨0, _⟩ => ⟨S1024x256, .f32⟩
  | .local _ .vmem, ⟨1, _⟩ => ⟨S1024x256, .f32⟩
  | .local _ .vmem, ⟨2, _⟩ => ⟨S512x256, .f32⟩
  | .local _ .vmem, ⟨3, _⟩ => ⟨S512x256, .f32⟩
  | .local _ .vmem, ⟨4, _⟩ => ⟨S1024x256, .f32⟩
  | .local _ .vmem, ⟨5, _⟩ => ⟨S1024x256, .f32⟩
  | .local _ .vmem, ⟨6, _⟩ => ⟨S1024x512, .f32⟩
  | .local _ .vmem, ⟨7, _⟩ => ⟨S1024x512, .f32⟩
  | _, _ => ⟨S131072x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  inb_S1024x256_S1024x256_0_0 : ∀ a, (![0, 0] : Fin 2 → Nat) a + S1024x256.size a ≤ S1024x256.size a
  h_S1024x256 : 0 < S1024x256.numel
  reduces_S1024x256_S1024 : S1024x256.Reduces [1] S1024
  shapeCasts_S1024_S1024x1 : S1024.ShapeCasts S1024x1
  broadcasts_S1024x1_S1024x256 : S1024x1.Broadcasts S1024x256
  inb_S512x256_S512x256_0_0 : ∀ a, (![0, 0] : Fin 2 → Nat) a + S512x256.size a ≤ S512x256.size a
  h_S512x256 : 0 < S512x256.numel
  reduces_S512x256_S512 : S512x256.Reduces [1] S512
  shapeCasts_S512_S512x1 : S512.ShapeCasts S512x1
  broadcasts_S512x1_S512x256 : S512x1.Broadcasts S512x256
  bitsLt_bf16_f32 : FTy.bits .bf16 < FTy.bits .f32
  transposes_S512x256_p1_0_S256x512 : S512x256.Transposes [1, 0] S256x512
  reduces_S1024x512_S1024 : S1024x512.Reduces [1] S1024
  broadcasts_S1024x1_S1024x512 : S1024x1.Broadcasts S1024x512
  inb_S1024x512_S1024x512_0_0 : ∀ a, (![0, 0] : Fin 2 → Nat) a + S1024x512.size a ≤ S1024x512.size a
  h_S1024x512 : 0 < S1024x512.numel
  slices_S131072x256_S131071x256_1_0 : S131072x256.Slices ![1, 0] S131071x256
  slices_S131072x256_S131071x256_0_0 : S131072x256.Slices ![0, 0] S131071x256
  reducesTo_S131071x256_S131071_d1 : S131071x256.ReducesTo [1] S131071
  h_S_ : 0 < S_.numel
  bcast_S_S131071 : S_.BroadcastsInDim S131071 (![] : Fin 0 → Fin S131071.rank)
  dot_S1024x256_S256x512_S1024x512_1_0_0_1_n_n_wf : DotDims.WF S1024x256 S256x512 S1024x512 [1] [0] [0] [1] [] []
  dot_S1024x512_S512x256_S1024x256_1_0_0_1_n_n_wf : DotDims.WF S1024x512 S512x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S131072x256.size a
  hwx0_0 : ∀ i : grid0.Coords, EltTy.bits .f32 = 32 ∨ (Rect.block (s := S131072x256) S1024x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .f32 = 32 ∨ (Rect.block (s := S512x256) S512x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x256.size a ≤ S512x256.size a
  hwx0_2 : ∀ i : grid0.Coords, EltTy.bits .f32 = 32 ∨ (Rect.block (s := S512x256) S512x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x256.size a ≤ S131072x256.size a
  hwx0_3 : ∀ i : grid0.Coords, EltTy.bits .f32 = 32 ∨ (Rect.block (s := S131072x256) S1024x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x512.size a ≤ S131072x512.size a
  hwx0_4 : ∀ i : grid0.Coords, EltTy.bits .f32 = 32 ∨ (Rect.block (s := S131072x512) S1024x512.size (cc0_transform_4 i) (hinb0_4 i)).WholeWords (EltTy.packing .f32)

variable [Facts₀]

def dot_S1024x256_S256x512_S1024x512_1_0_0_1_n_n : DotDims S1024x256 S256x512 S1024x512 where
  lhsContracting := [1]
  rhsContracting := [0]
  lhsNonContracting := [0]
  rhsNonContracting := [1]
  lhsBatch := []
  rhsBatch := []
  wf := dot_S1024x256_S256x512_S1024x512_1_0_0_1_n_n_wf
def dot_S1024x512_S512x256_S1024x256_1_0_0_1_n_n : DotDims S1024x512 S512x256 S1024x256 where
  lhsContracting := [1]
  rhsContracting := [0]
  lhsNonContracting := [0]
  rhsNonContracting := [1]
  lhsBatch := []
  rhsBatch := []
  wf := dot_S1024x512_S512x256_S1024x256_1_0_0_1_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S1024x256.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S1024x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S131072x256 : Shape := ⟨2, ![131072, 256]⟩
abbrev S512x256 : Shape := ⟨2, ![512, 256]⟩
abbrev S_ : Shape := ⟨0, ![]⟩
abbrev S131072 : Shape := ⟨1, ![131072]⟩
abbrev S131072x1 : Shape := ⟨2, ![131072, 1]⟩
abbrev S512 : Shape := ⟨1, ![512]⟩
abbrev S512x1 : Shape := ⟨2, ![512, 1]⟩
abbrev S131072x512 : Shape := ⟨2, ![131072, 512]⟩
abbrev S131071x256 : Shape := ⟨2, ![131071, 256]⟩
abbrev S131071 : Shape := ⟨1, ![131071]⟩

abbrev nBuf : Space → Nat
  | .hbm => 52
  | .vmem => 0
  | .smem => 0
  | _ => 0

abbrev bufTy : (tb : Table) → Fin (tcTables nBuf tb) → BufTy
  | .hbm, ⟨0, _⟩ => ⟨S131072x256, .f32⟩
  | .hbm, ⟨1, _⟩ => ⟨S512x256, .f32⟩
  | .hbm, ⟨2, _⟩ => ⟨S512x256, .f32⟩
  | .hbm, ⟨3, _⟩ => ⟨S131072x256, .f32⟩
  | .hbm, ⟨4, _⟩ => ⟨S_, .f32⟩
  | .hbm, ⟨5, _⟩ => ⟨S131072, .f32⟩
  | .hbm, ⟨6, _⟩ => ⟨S131072x1, .f32⟩
  | .hbm, ⟨7, _⟩ => ⟨S131072x1, .f32⟩
  | .hbm, ⟨8, _⟩ => ⟨S_, .f32⟩
  | .hbm, ⟨9, _⟩ => ⟨S131072x1, .f32⟩
  | .hbm, ⟨10, _⟩ => ⟨S131072x1, .f32⟩
  | .hbm, ⟨11, _⟩ => ⟨S131072x256, .f32⟩
  | .hbm, ⟨12, _⟩ => ⟨S131072x256, .f32⟩
  | .hbm, ⟨13, _⟩ => ⟨S512x256, .f32⟩
  | .hbm, ⟨14, _⟩ => ⟨S_, .f32⟩
  | .hbm, ⟨15, _⟩ => ⟨S512, .f32⟩
  | .hbm, ⟨16, _⟩ => ⟨S512x1, .f32⟩
  | .hbm, ⟨17, _⟩ => ⟨S512x1, .f32⟩
  | .hbm, ⟨18, _⟩ => ⟨S_, .f32⟩
  | .hbm, ⟨19, _⟩ => ⟨S512x1, .f32⟩
  | .hbm, ⟨20, _⟩ => ⟨S512x1, .f32⟩
  | .hbm, ⟨21, _⟩ => ⟨S512x256, .f32⟩
  | .hbm, ⟨22, _⟩ => ⟨S512x256, .f32⟩
  | .hbm, ⟨23, _⟩ => ⟨S131072x512, .f32⟩
  | .hbm, ⟨24, _⟩ => ⟨S_, .f32⟩
  | .hbm, ⟨25, _⟩ => ⟨S131072x512, .f32⟩
  | .hbm, ⟨26, _⟩ => ⟨S131072x512, .f32⟩
  | .hbm, ⟨27, _⟩ => ⟨S_, .f32⟩
  | .hbm, ⟨28, _⟩ => ⟨S131072, .f32⟩
  | .hbm, ⟨29, _⟩ => ⟨S_, .f32⟩
  | .hbm, ⟨30, _⟩ => ⟨S131072, .f32⟩
  | .hbm, ⟨31, _⟩ => ⟨S131072, .f32⟩
  | .hbm, ⟨32, _⟩ => ⟨S131072x1, .f32⟩
  | .hbm, ⟨33, _⟩ => ⟨S131072x512, .f32⟩
  | .hbm, ⟨34, _⟩ => ⟨S131072x512, .f32⟩
  | .hbm, ⟨35, _⟩ => ⟨S131072x512, .f32⟩
  | .hbm, ⟨36, _⟩ => ⟨S_, .f32⟩
  | .hbm, ⟨37, _⟩ => ⟨S131072, .f32⟩
  | .hbm, ⟨38, _⟩ => ⟨S131072x1, .f32⟩
  | .hbm, ⟨39, _⟩ => ⟨S131072x512, .f32⟩
  | .hbm, ⟨40, _⟩ => ⟨S131072x512, .f32⟩
  | .hbm, ⟨41, _⟩ => ⟨S131072x256, .f32⟩
  | .hbm, ⟨42, _⟩ => ⟨S131071x256, .f32⟩
  | .hbm, ⟨43, _⟩ => ⟨S131071x256, .f32⟩
  | .hbm, ⟨44, _⟩ => ⟨S131071x256, .f32⟩
  | .hbm, ⟨45, _⟩ => ⟨S131071x256, .f32⟩
  | .hbm, ⟨46, _⟩ => ⟨S_, .f32⟩
  | .hbm, ⟨47, _⟩ => ⟨S131071, .f32⟩
  | .hbm, ⟨48, _⟩ => ⟨S131071, .f32⟩
  | .hbm, ⟨49, _⟩ => ⟨S_, .f32⟩
  | .hbm, ⟨50, _⟩ => ⟨S131071, .f32⟩
  | .hbm, ⟨51, _⟩ => ⟨S131071, .i1⟩
  | _, _ => ⟨S131072x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call1_v0 : Ref sig .tc := ⟨.hbm, 13, rfl⟩
abbrev main_call1_cst : Ref sig .tc := ⟨.hbm, 14, rfl⟩
abbrev main_call1_v1 : Ref sig .tc := ⟨.hbm, 15, rfl⟩
abbrev main_call1_v2 : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_cst_2 : Ref sig .tc := ⟨.hbm, 27, rfl⟩
abbrev main_v13 : Ref sig .tc := ⟨.hbm, 28, rfl⟩
abbrev main_cst_3 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_4 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_call2_v0 : Ref sig .tc := ⟨.hbm, 45, rfl⟩
abbrev main_call2_cst : Ref sig .tc := ⟨.hbm, 46, rfl⟩
abbrev main_call2_v1 : Ref sig .tc := ⟨.hbm, 47, rfl⟩
abbrev main_v28 : Ref sig .tc := ⟨.hbm, 48, rfl⟩
abbrev main_cst_5 : Ref sig .tc := ⟨.hbm, 49, rfl⟩
abbrev main_v29 : Ref sig .tc := ⟨.hbm, 50, rfl⟩
abbrev main_v30 : Ref sig .tc := ⟨.hbm, 51, rfl⟩

abbrev nD : Nat := 1
abbrev τ : Topo := Topo.v7x

variable {F : FTy → Type} [FloatOps F]

class Facts₀ : Prop where
  reducesTo_S131072x256_S131072_d1 : S131072x256.ReducesTo [1] S131072
  h_S_ : 0 < S_.numel
  bcast_S131072_S131072x1_0 : S131072.BroadcastsInDim S131072x1 (![0] : Fin 1 → Fin S131072x1.rank)
  bcast_S_S131072x1 : S_.BroadcastsInDim S131072x1 (![] : Fin 0 → Fin S131072x1.rank)
  bcast_S131072x1_S131072x256_0_1 : S131072x1.BroadcastsInDim S131072x256 (![0, 1] : Fin 2 → Fin S131072x256.rank)
  reducesTo_S512x256_S512_d1 : S512x256.ReducesTo [1] S512
  bcast_S512_S512x1_0 : S512.BroadcastsInDim S512x1 (![0] : Fin 1 → Fin S512x1.rank)
  bcast_S_S512x1 : S_.BroadcastsInDim S512x1 (![] : Fin 0 → Fin S512x1.rank)
  bcast_S512x1_S512x256_0_1 : S512x1.BroadcastsInDim S512x256 (![0, 1] : Fin 2 → Fin S512x256.rank)
  bcast_S_S131072x512 : S_.BroadcastsInDim S131072x512 (![] : Fin 0 → Fin S131072x512.rank)
  reducesTo_S131072x512_S131072_d1 : S131072x512.ReducesTo [1] S131072
  bcast_S_S131072 : S_.BroadcastsInDim S131072 (![] : Fin 0 → Fin S131072.rank)
  bcast_S131072x1_S131072x512_0_1 : S131072x1.BroadcastsInDim S131072x512 (![0, 1] : Fin 2 → Fin S131072x512.rank)
  slices_S131072x256_S131071x256_1_0 : S131072x256.Slices ![1, 0] S131071x256
  slices_S131072x256_S131071x256_0_0 : S131072x256.Slices ![0, 0] S131071x256
  reducesTo_S131071x256_S131071_d1 : S131071x256.ReducesTo [1] S131071
  bcast_S_S131071 : S_.BroadcastsInDim S131071 (![] : Fin 0 → Fin S131071.rank)
  dot_S131072x256_S512x256_S131072x512_1_1_0_0_n_n_wf : DotDims.WF S131072x256 S512x256 S131072x512 [1] [1] [0] [0] [] []
  dot_S131072x512_S512x256_S131072x256_1_0_0_1_n_n_wf : DotDims.WF S131072x512 S512x256 S131072x256 [1] [0] [0] [1] [] []

variable [Facts₀]

def dot_S131072x256_S512x256_S131072x512_1_1_0_0_n_n : DotDims S131072x256 S512x256 S131072x512 where
  lhsContracting := [1]
  rhsContracting := [1]
  lhsNonContracting := [0]
  rhsNonContracting := [0]
  lhsBatch := []
  rhsBatch := []
  wf := dot_S131072x256_S512x256_S131072x512_1_1_0_0_n_n_wf
def dot_S131072x512_S512x256_S131072x256_1_0_0_1_n_n : DotDims S131072x512 S512x256 S131072x256 where
  lhsContracting := [1]
  rhsContracting := [0]
  lhsNonContracting := [0]
  rhsNonContracting := [1]
  lhsBatch := []
  rhsBatch := []
  wf := dot_S131072x512_S512x256_S131072x256_1_0_0_1_n_n_wf

class Facts : Prop extends Facts₀ where

variable [Facts]
-- ==== Proof.LibRowSoftmax.lean ====
/-
  General lemmas for kernels that take a softmax along the rows of a matrix and multiply matrices row by column,
  read at an index given by coordinates, on the extended reals. Independent of any program.

  * `expRows s` — every row of `s` minus its maximum, exponentiated — and `normRows e` — every row of `e` over its
    sum — are written with the vector operations a kernel body prints (a lane reduction, the result kept as a column,
    the column broadcast back along the row), with the shape facts and the accumulator facts as arguments, so that a
    printed body is such a term by `rfl`. `expRows_apply` and `normRows_apply` read them at `(p, j)`: the entry's
    distance below the fold of `max` over row `p`, exponentiated; the entry over the `Fin n` sum of row `p`.
  * `matmul_rows_cols_apply` — a product `[a, n] · [n, b]` into the zero accumulator, read at `(p, c)`, is the sum
    over `k : Fin n` of the left factor at `(p, k)` times the right factor at `(k, c)`; the two kept-axis coordinate
    facts of the dimension numbers are the caller's (they are decided on the printed record).
-/
import Idealize.ShloMosaic.PureOps
import Idealize.ShloMosaic.PureOps.Ideal.Laws
import Idealize.ShloMosaic.Lib.ValueIdx
import Idealize.ShloMosaic.Lib.Pipeline.Value

noncomputable section

open scoped BigOperators

namespace Cert.RowSoftmax

open Idealize.ShloMosaic Idealize.ShloMosaic.ValueIdx

section Layout

variable {α : Type} {a n : ℕ}

/-- A vector `[a]` kept as the column `[a, 1]` holds, at `(p, u)`, the vector's entry `p`. -/
theorem column_apply (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    omega)

/-- A column `[a, 1]` broadcast along the rows to `[a, n]` holds, at `(p, c)`, the column's entry `p`. -/
theorem column_broadcast_apply (v : (⟨2, ![a, 1]⟩ : Shape).Idx → α)
    (h : (⟨2, ![a, 1]⟩ : Shape).Broadcasts ⟨2, ![a, n]⟩) (p : Fin a) (c : Fin n) :
    broadcastTo ⟨2, ![a, n]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Row `p` with the column coordinate `k` put back is the index `(p, k)`. -/
theorem row_lift (h : (⟨2, ![a, n]⟩ : Shape).Reduces [1] (⟨1, ![a]⟩ : Shape)) (p : Fin a)
    (k : Fin ((⟨2, ![a, n]⟩ : Shape).size 1)) : h.lift (ix1 p) k = ix2 p (⟨k.val, k.isLt⟩ : Fin n) := by
  funext c; apply Fin.ext
  fin_cases c <;> rfl

end Layout

section Terms

variable {F : FTy → Type} [FloatOps F] {a n : ℕ}

/-- Every row minus its maximum, exponentiated. -/
def expRows (s : FVec F ⟨2, ![a, n]⟩ .f32)
    (hr : (⟨2, ![a, n]⟩ : Shape).Reduces [1] (⟨1, ![a]⟩ : Shape)) (hφ : FKind.Formats .f32)
    (hacc : (0xFF800000#32 : BitVec 32) = FKind.maximumf.neutral .f32 hφ)
    (hc : (⟨1, ![a]⟩ : Shape).ShapeCasts ⟨2, ![a, 1]⟩) (hb : (⟨2, ![a, 1]⟩ : Shape).Broadcasts ⟨2, ![a, n]⟩) :
    FVec F ⟨2, ![a, n]⟩ .f32 :=
  exp (subf s (broadcastTo ⟨2, ![a, n]⟩
    (shapeCast ⟨2, ![a, 1]⟩ (multiReduction .maximumf [1] ⟨1, ![a]⟩ s 0xFF800000#32 hr hφ hacc) hc) hb))

/-- Every row over its sum. -/
def normRows (e : FVec F ⟨2, ![a, n]⟩ .f32)
    (hr : (⟨2, ![a, n]⟩ : Shape).Reduces [1] (⟨1, ![a]⟩ : Shape)) (hφ : FKind.Formats .f32)
    (hacc : (0x00000000#32 : BitVec 32) = FKind.add.neutral .f32 hφ)
    (hc : (⟨1, ![a]⟩ : Shape).ShapeCasts ⟨2, ![a, 1]⟩) (hb : (⟨2, ![a, 1]⟩ : Shape).Broadcasts ⟨2, ![a, n]⟩) :
    FVec F ⟨2, ![a, n]⟩ .f32 :=
  divf e (broadcastTo ⟨2, ![a, n]⟩
    (shapeCast ⟨2, ![a, 1]⟩ (multiReduction .add [1] ⟨1, ![a]⟩ e 0x00000000#32 hr hφ hacc) hc) hb)

end Terms

variable {a n : ℕ}

/-- Entry `(p, j)` of the exponentials: the exponential of the entry's distance below row `p`'s maximum, the
    maximum a fold of `max` from the accumulator word's value over the row. -/
theorem expRows_apply (s : FVec Ideal ⟨2, ![a, n]⟩ .f32)
    (hr : (⟨2, ![a, n]⟩ : Shape).Reduces [1] (⟨1, ![a]⟩ : Shape)) (hφ : FKind.Formats .f32)
    (hacc : (0xFF800000#32 : BitVec 32) = FKind.maximumf.neutral .f32 hφ)
    (hc : (⟨1, ![a]⟩ : Shape).ShapeCasts ⟨2, ![a, 1]⟩) (hb : (⟨2, ![a, 1]⟩ : Shape).Broadcasts ⟨2, ![a, n]⟩)
    (p : Fin a) (j : Fin n) :
    expRows s hr hφ hacc hc hb (ix2 p j)
      = Ideal.exp (s (ix2 p j)
          - (Finset.univ : Finset (Fin n)).fold max (Ideal.ofBits .f32 0xFF800000#32) (fun j' => s (ix2 p j'))) := by
  unfold expRows
  show Ideal.exp (s (ix2 p j) - broadcastTo ⟨2, ![a, n]⟩ _ hb (ix2 p j)) = _
  rw [column_broadcast_apply, column_apply]
  refine congrArg (fun x => Ideal.exp (s (ix2 p j) - x)) ?_
  exact (Ideal.multiReduction_maximumf_single s _ hr hφ hacc (ix1 p)).trans
    (congrArg (fun f => (Finset.univ : Finset (Fin n)).fold max (Ideal.ofBits .f32 0xFF800000#32) f)
      (funext fun k => congrArg s (row_lift hr p k)))

/-- Entry `(p, j)` of the normalised rows: the entry over the sum of row `p`. -/
theorem normRows_apply (e : FVec Ideal ⟨2, ![a, n]⟩ .f32)
    (hr : (⟨2, ![a, n]⟩ : Shape).Reduces [1] (⟨1, ![a]⟩ : Shape)) (hφ : FKind.Formats .f32)
    (hacc : (0x00000000#32 : BitVec 32) = FKind.add.neutral .f32 hφ)
    (hc : (⟨1, ![a]⟩ : Shape).ShapeCasts ⟨2, ![a, 1]⟩) (hb : (⟨2, ![a, 1]⟩ : Shape).Broadcasts ⟨2, ![a, n]⟩)
    (p : Fin a) (j : Fin n) :
    normRows e hr hφ hacc hc hb (ix2 p j) = Ideal.div (e (ix2 p j)) (∑ j' : Fin n, e (ix2 p j')) := by
  unfold normRows
  rw [divf_apply, column_broadcast_apply, column_apply]
  refine congrArg (Ideal.div (e (ix2 p j))) ?_
  exact (Ideal.multiReduction_add_single e _ hr hφ hacc (ix1 p)).trans
    (Finset.sum_congr rfl fun k _ => congrArg e (row_lift hr p k))

/-- A rows-by-columns product `[a, n] · [n, b]` into the zero accumulator, read at `(p, c)`: the sum over the shared
    axis of row `p` of the left factor against column `c` of the right one. The contracted coordinates follow from
    which axes are contracted; the kept ones (`hl0`, `hr1`) are the caller's. -/
theorem matmul_rows_cols_apply {b : ℕ} (d : DotDims ⟨2, ![a, n]⟩ ⟨2, ![n, b]⟩ ⟨2, ![a, b]⟩)
    (hr : d.contr.rank = 1) (hs : d.contr.size ⟨0, by omega⟩ = n)
    (hlc : d.lhsContracting = [1]) (hrc : d.rhsContracting = [0])
    (hl0 : ∀ (i : (⟨2, ![a, b]⟩ : Shape).Idx) (q : d.contr.Idx), (d.lhsIdx i q 0).val = (i 0).val)
    (hr1 : ∀ (i : (⟨2, ![a, b]⟩ : Shape).Idx) (q : d.contr.Idx), (d.rhsIdx i q 1).val = (i 1).val)
    {φ₁ φ₂ : FTy} (prec : Option ContractPrecision) (lhs : FVec Ideal ⟨2, ![a, n]⟩ φ₁) (rhs : FVec Ideal ⟨2, ![n, b]⟩ φ₂)
    (p : Fin a) (c : Fin b) :
    FloatOps.matmul d prec lhs rhs (constant ⟨2, ![a, b]⟩ .f32 0x00000000#32) (ix2 p c)
      = ∑ k : Fin n, lhs (ix2 p k) * rhs (ix2 k c) := by
  rw [Ideal.matmul_constant_zero_apply, ← Equiv.sum_comp (contrEquiv1 d n hr hs).symm]
  refine Finset.sum_congr rfl fun k _ => ?_
  have hk := contrEquiv1_symm_val d n hr hs k
  have hL : d.lhsIdx (ix2 p c) ((contrEquiv1 d n hr hs).symm k) = ix2 p k := by
    funext ax; apply Fin.ext
    match ax with
    | ⟨0, _⟩ => exact hl0 _ _
    | ⟨1, _⟩ => exact (d.lhsIdx_val_of_single hlc _ _).trans hk
  have hR : d.rhsIdx (ix2 p c) ((contrEquiv1 d n hr hs).symm k) = ix2 k c := by
    funext ax; apply Fin.ext
    match ax with
    | ⟨0, _⟩ => exact (d.rhsIdx_val_of_single hrc _ _).trans hk
    | ⟨1, _⟩ => exact hr1 _ _
  rw [hL, hR]

end Cert.RowSoftmax

end
-- ==== Proof.Spec.lean ====
/-
  Memory retrieval by cosine similarity, one query row at a time, on the extended reals.

  For a query row `q` (length `n`), a bank of `M` key rows `K j` and value rows `V j`:
    * every row is divided by its Euclidean norm, the norm clipped from below at the word `epsW`;
    * the logit of key `j` is the inner product of the two unit rows, times the temperature word `tempW`;
    * the weights are the softmax of the logits, written with the row maximum subtracted before the exponential
      (the maximum taken as a fold of `max` from the word `negInfW`);
    * the read-out is the weighted sum of the value rows.
  The three words are kept as patterns: both programs carry the same ones, so their values are never needed.
-/
import Idealize.ShloMosaic.PureOps.Ideal

noncomputable section

open scoped BigOperators

namespace Cert.Retrieval

open Idealize.ShloMosaic

/-- The norm's lower clip, the float word of `1e-12`. -/
def epsW : EReal := Ideal.ofBits .f32 0x2B8CBCCC#32
/-- The softmax temperature, the float word of `10`. -/
def tempW : EReal := Ideal.ofBits .f32 0x41200000#32
/-- The word a running maximum starts from (`-∞`). -/
def negInfW : EReal := Ideal.ofBits .f32 0xFF800000#32

variable {n M D : ℕ}

/-- The Euclidean norm of a row, clipped from below. -/
def clippedNorm (x : Fin n → EReal) : EReal := max (Ideal.sqrt (∑ k, x k * x k)) epsW

/-- A row divided by its clipped norm. -/
def unitRow (x : Fin n → EReal) (k : Fin n) : EReal := Ideal.div (x k) (clippedNorm x)

/-- The scaled cosine similarity of the query row with key row `j`. -/
def logit (q : Fin n → EReal) (K : Fin M → Fin n → EReal) (j : Fin M) : EReal :=
  (∑ k, unitRow q k * unitRow (K j) k) * tempW

/-- The largest logit of the row. -/
def rowMax (q : Fin n → EReal) (K : Fin M → Fin n → EReal) : EReal :=
  (Finset.univ : Finset (Fin M)).fold max negInfW (logit q K)

/-- The exponential of a logit's distance below the row maximum. -/
def expo (q : Fin n → EReal) (K : Fin M → Fin n → EReal) (j : Fin M) : EReal :=
  Ideal.exp (logit q K j - rowMax q K)

/-- The softmax weight of key `j`. -/
def weight (q : Fin n → EReal) (K : Fin M → Fin n → EReal) (j : Fin M) : EReal :=
  Ideal.div (expo q K j) (∑ j', expo q K j')

/-- The retrieved row: the weighted sum of the value rows. -/
def readout (q : Fin n → EReal) (K : Fin M → Fin n → EReal) (V : Fin M → Fin D → EReal) (d : Fin D) : EReal :=
  ∑ j, weight q K j * V j d

/-- Taking the maximum once more with the starting word changes nothing: the fold is already above it. -/
theorem max_negInfW_rowMax (q : Fin n → EReal) (K : Fin M → Fin n → EReal) :
    max negInfW (rowMax q K) = rowMax q K :=
  max_eq_right ((Finset.le_fold_max negInfW).2 (Or.inl le_rfl))

end Cert.Retrieval

end
-- ==== Proof.Rows.lean ====
/-
  Rows divided by their clipped Euclidean norms, as a vector term and read at an index.

  `unitRows v` divides every row of a matrix by its Euclidean norm, the norm clipped from below at the float word of
  `1e-12`. It is written with the vector operations a kernel body uses (the lane sum of the squares kept as a
  column, its square root clipped, the column broadcast back along the row), at any float values; at the extended reals
  entry `(p, k)` is entry `k` of row `p` over that row's clipped norm, the row formula of `Cert.Retrieval`.
-/
import Idealize.ShloMosaic.PureOps
import Idealize.ShloMosaic.PureOps.Ideal.Laws
import Idealize.ShloMosaic.Lib.ValueIdx
import Idealize.ShloMosaic.Lib.Pipeline.Value
import proofs.«106904_j88210038325293_1_alg».proof.Proof.LibRowSoftmax
import proofs.«106904_j88210038325293_1_alg».proof.Proof.Spec

noncomputable section

open scoped BigOperators

namespace Cert.Retrieval

open Idealize.ShloMosaic Idealize.ShloMosaic.ValueIdx Cert.RowSoftmax

variable {F : FTy → Type} [FloatOps F] {a n : ℕ}

/-- Every row over its Euclidean norm, the norm clipped from below at the word of `1e-12`. -/
def unitRows (v : FVec F ⟨2, ![a, n]⟩ .f32)
    (hr : (⟨2, ![a, n]⟩ : Shape).Reduces [1] (⟨1, ![a]⟩ : Shape)) (hφ : FKind.Formats .f32)
    (hacc : (0x00000000#32 : BitVec 32) = FKind.add.neutral .f32 hφ)
    (hc : (⟨1, ![a]⟩ : Shape).ShapeCasts ⟨2, ![a, 1]⟩) (hb : (⟨2, ![a, 1]⟩ : Shape).Broadcasts ⟨2, ![a, n]⟩) :
    FVec F ⟨2, ![a, n]⟩ .f32 :=
  divf v (broadcastTo ⟨2, ![a, n]⟩
    (maximumf (sqrt (shapeCast ⟨2, ![a, 1]⟩ (multiReduction .add [1] ⟨1, ![a]⟩ (mulf v v) 0x00000000#32 hr hφ hacc) hc))
      (broadcast ⟨2, ![a, 1]⟩ (Scalar.ofBits .f32 0x2B8CBCCC#32))) hb)

/-- Entry `(p, k)` of the unit rows is entry `k` of row `p` over that row's clipped norm. -/
theorem unitRows_apply (v : FVec Ideal ⟨2, ![a, n]⟩ .f32)
    (hr : (⟨2, ![a, n]⟩ : Shape).Reduces [1] (⟨1, ![a]⟩ : Shape)) (hφ : FKind.Formats .f32)
    (hacc : (0x00000000#32 : BitVec 32) = FKind.add.neutral .f32 hφ)
    (hc : (⟨1, ![a]⟩ : Shape).ShapeCasts ⟨2, ![a, 1]⟩) (hb : (⟨2, ![a, 1]⟩ : Shape).Broadcasts ⟨2, ![a, n]⟩)
    (p : Fin a) (k : Fin n) :
    unitRows v hr hφ hacc hc hb (ix2 p k) = unitRow (fun k => v (ix2 p k)) k := by
  unfold unitRows
  rw [divf_apply, column_broadcast_apply, maximumf_apply]
  show Ideal.div (v (ix2 p k)) (max (Ideal.sqrt (shapeCast ⟨2, ![a, 1]⟩ _ hc (ix2 p (0 : Fin 1)))) (Ideal.ofBits .f32 0x2B8CBCCC#32)) = _
  rw [column_apply]
  refine congrArg (fun x => Ideal.div (v (ix2 p k)) (max (Ideal.sqrt x) (Ideal.ofBits .f32 0x2B8CBCCC#32))) ?_
  exact (Ideal.multiReduction_add_single (mulf v v) _ hr hφ hacc (ix1 p)).trans
    (Finset.sum_congr rfl fun k' _ => congrArg (mulf v v) (row_lift hr p k'))

end Cert.Retrieval

end
-- ==== Proof.KernelRow.lean ====
/-
  The kernel body's two stored values, read entry by entry at the extended reals.

  The body normalises the rows of its query block and of the key bank, multiplies the unit rows (the keys
  transposed), scales, takes the row softmax — the weights block it stores — and multiplies the weights by the value
  bank — the output block it stores. A change of float format is the identity here, and a matrix product into the
  zero accumulator is the plain sum over the contracted axis, so entry `(p, j)` of the weights block is the softmax
  weight of key `j` for the block's query row `p`, and entry `(p, d)` of the output block is that row's read-out at `d`.
-/
import proofs.«106904_j88210038325293_1_alg».proof.Proof.Gen.KernelIdeal.Skeleton
import proofs.«106904_j88210038325293_1_alg».proof.Proof.Rows
import proofs.«106904_j88210038325293_1_alg».proof.Proof.LibRowSoftmax

noncomputable section

open scoped BigOperators

namespace Cert.KernelIdeal.RowValue

open Idealize.ShloMosaic Idealize.ShloMosaic.ValueIdx Cert.KernelIdeal Cert.KernelIdeal.Gen Cert.Retrieval Cert.RowSoftmax

section Terms

variable {F : FTy → Type} [FloatOps F]

/-- The query block's rows over their clipped norms. -/
def unitQ (v0 : Vec F S1024x256 .f32) : FVec F S1024x256 .f32 :=
  unitRows v0 reduces_S1024x256_S1024 (.inl rfl) rfl shapeCasts_S1024_S1024x1 broadcasts_S1024x1_S1024x256

/-- The key bank's rows over their clipped norms. -/
def unitK (v9 : Vec F S512x256 .f32) : FVec F S512x256 .f32 :=
  unitRows v9 reduces_S512x256_S512 (.inl rfl) rfl shapeCasts_S512_S512x1 broadcasts_S512x1_S512x256

/-- The scaled similarities of the block's rows with every key. -/
def logits (v0 : Vec F S1024x256 .f32) (v9 : Vec F S512x256 .f32) : FVec F S1024x512 .f32 :=
  mulf (matmul dot_S1024x256_S256x512_S1024x512_1_0_0_1_n_n none (truncf .bf16 (unitQ v0) bitsLt_bf16_f32)
      (transpose S256x512 [1, 0] (truncf .bf16 (unitK v9) bitsLt_bf16_f32) transposes_S512x256_p1_0_S256x512)
      (constant S1024x512 .f32 0x00000000#32))
    (broadcast S1024x512 (Scalar.ofBits .f32 0x41200000#32))

/-- Every row of the scaled similarities minus its maximum, exponentiated. -/
def expBlock (v0 : Vec F S1024x256 .f32) (v9 : Vec F S512x256 .f32) : FVec F S1024x512 .f32 :=
  expRows (logits v0 v9) reduces_S1024x512_S1024 (.inl rfl) rfl shapeCasts_S1024_S1024x1 broadcasts_S1024x1_S1024x512

/-- The stored weights block is the row softmax of the scaled similarities. -/
theorem pay1_eq (v0 : Vec F S1024x256 .f32) (v9 : Vec F S512x256 .f32) :
    k0_pay1 v0 v9 = normRows (expBlock v0 v9) reduces_S1024x512_S1024 (.inl rfl) rfl shapeCasts_S1024_S1024x1
        broadcasts_S1024x1_S1024x512 := rfl

/-- The stored output block is the weights block times the value bank. -/
theorem pay2_eq (v0 : Vec F S1024x256 .f32) (v9 v34 : Vec F S512x256 .f32) :
    k0_pay2 v0 v9 v34 = matmul dot_S1024x512_S512x256_S1024x256_1_0_0_1_n_n none
      (truncf .bf16 (k0_pay1 v0 v9) bitsLt_bf16_f32) (truncf .bf16 v34 bitsLt_bf16_f32)
      (constant S1024x256 .f32 0x00000000#32) := rfl

end Terms

/-! ### The two products' coordinate maps -/

theorem simDot_l0 (i : S1024x512.Idx) (q : dot_S1024x256_S256x512_S1024x512_1_0_0_1_n_n.contr.Idx) :
    (dot_S1024x256_S256x512_S1024x512_1_0_0_1_n_n.lhsIdx i q 0).val = (i 0).val := by
  unfold DotDims.lhsIdx
  rw [dif_neg (show ¬(0 : Fin S1024x256.rank) ∈ dot_S1024x256_S256x512_S1024x512_1_0_0_1_n_n.lhsBatch by decide),
    dif_pos (show (0 : Fin S1024x256.rank) ∈ dot_S1024x256_S256x512_S1024x512_1_0_0_1_n_n.lhsNonContracting by decide)]
  rfl

theorem simDot_r1 (i : S1024x512.Idx) (q : dot_S1024x256_S256x512_S1024x512_1_0_0_1_n_n.contr.Idx) :
    (dot_S1024x256_S256x512_S1024x512_1_0_0_1_n_n.rhsIdx i q 1).val = (i 1).val := by
  unfold DotDims.rhsIdx
  rw [dif_neg (show ¬(1 : Fin S256x512.rank) ∈ dot_S1024x256_S256x512_S1024x512_1_0_0_1_n_n.rhsBatch by decide),
    dif_pos (show (1 : Fin S256x512.rank) ∈ dot_S1024x256_S256x512_S1024x512_1_0_0_1_n_n.rhsNonContracting by decide)]
  rfl

theorem outDot_l0 (i : S1024x256.Idx) (q : dot_S1024x512_S512x256_S1024x256_1_0_0_1_n_n.contr.Idx) :
    (dot_S1024x512_S512x256_S1024x256_1_0_0_1_n_n.lhsIdx i q 0).val = (i 0).val := by
  unfold DotDims.lhsIdx
  rw [dif_neg (show ¬(0 : Fin S1024x512.rank) ∈ dot_S1024x512_S512x256_S1024x256_1_0_0_1_n_n.lhsBatch by decide),
    dif_pos (show (0 : Fin S1024x512.rank) ∈ dot_S1024x512_S512x256_S1024x256_1_0_0_1_n_n.lhsNonContracting by decide)]
  rfl

theorem outDot_r1 (i : S1024x256.Idx) (q : dot_S1024x512_S512x256_S1024x256_1_0_0_1_n_n.contr.Idx) :
    (dot_S1024x512_S512x256_S1024x256_1_0_0_1_n_n.rhsIdx i q 1).val = (i 1).val := by
  unfold DotDims.rhsIdx
  rw [dif_neg (show ¬(1 : Fin S512x256.rank) ∈ dot_S1024x512_S512x256_S1024x256_1_0_0_1_n_n.rhsBatch by decide),
    dif_pos (show (1 : Fin S512x256.rank) ∈ dot_S1024x512_S512x256_S1024x256_1_0_0_1_n_n.rhsNonContracting by decide)]
  rfl

/-! ### The stored blocks at an entry -/

/-- The transposed unit keys at `(k, j)` are the unit keys at `(j, k)`. -/
theorem unitK_transposed (w : FVec Ideal S512x256 .bf16) (k : Fin 256) (j : Fin 512) :
    transpose S256x512 [1, 0] w transposes_S512x256_p1_0_S256x512 (ix2 k j) = w (ix2 j k) :=
  transpose_apply [1, 0] w transposes_S512x256_p1_0_S256x512 (ix2 k j) (ix2 j k) fun b => by
    match b with
    | ⟨0, _⟩ => rfl
    | ⟨1, _⟩ => rfl

/-- Entry `(p, j)` of the scaled similarities is the logit of key `j` for the block's row `p`. -/
theorem logits_apply (v0 : Vec Ideal S1024x256 .f32) (v9 : Vec Ideal S512x256 .f32) (p : Fin 1024) (j : Fin 512) :
    logits v0 v9 (ix2 p j) = logit (fun k => v0 (ix2 p k)) (fun j' k => v9 (ix2 j' k)) j := by
  unfold logits
  rw [mulf_apply, broadcast_apply]
  refine congrArg (· * Ideal.ofBits .f32 0x41200000#32) ?_
  refine (matmul_rows_cols_apply dot_S1024x256_S256x512_S1024x512_1_0_0_1_n_n rfl rfl rfl rfl simDot_l0 simDot_r1 none _ _ p j).trans ?_
  refine Finset.sum_congr rfl fun k _ => ?_
  rw [unitK_transposed, truncf_apply, truncf_apply]
  exact congrArg₂ (· * ·) (unitRows_apply v0 _ _ _ _ _ p k) (unitRows_apply v9 _ _ _ _ _ j k)

/-- Entry `(p, j)` of the exponentials is the exponential of logit `j`'s distance below the largest logit of row `p`. -/
theorem expBlock_apply (v0 : Vec Ideal S1024x256 .f32) (v9 : Vec Ideal S512x256 .f32) (p : Fin 1024) (j : Fin 512) :
    expBlock v0 v9 (ix2 p j) = expo (fun k => v0 (ix2 p k)) (fun j' k => v9 (ix2 j' k)) j := by
  refine (expRows_apply (logits v0 v9) _ _ _ _ _ p j).trans ?_
  simp only [logits_apply]
  rfl

/-- Entry `(p, j)` of the stored weights block is the softmax weight of key `j` for the block's row `p`. -/
theorem pay1_apply (v0 : Vec Ideal S1024x256 .f32) (v9 : Vec Ideal S512x256 .f32) (p : Fin 1024) (j : Fin 512) :
    k0_pay1 v0 v9 (ix2 p j) = weight (fun k => v0 (ix2 p k)) (fun j' k => v9 (ix2 j' k)) j := by
  rw [pay1_eq]
  refine (normRows_apply (expBlock v0 v9) _ _ _ _ _ p j).trans ?_
  exact congrArg₂ Ideal.div (expBlock_apply v0 v9 p j) (Finset.sum_congr rfl fun j' _ => expBlock_apply v0 v9 p j')

/-- Entry `(p, d)` of the stored output block is the read-out at `d` for the block's row `p`. -/
theorem pay2_apply (v0 : Vec Ideal S1024x256 .f32) (v9 v34 : Vec Ideal S512x256 .f32) (p : Fin 1024) (d : Fin 256) :
    k0_pay2 v0 v9 v34 (ix2 p d)
      = readout (fun k => v0 (ix2 p k)) (fun j' k => v9 (ix2 j' k)) (fun j' d' => v34 (ix2 j' d')) d := by
  rw [pay2_eq]
  refine (matmul_rows_cols_apply dot_S1024x512_S512x256_S1024x256_1_0_0_1_n_n rfl rfl rfl rfl outDot_l0 outDot_r1 none _ _ p d).trans ?_
  refine Finset.sum_congr rfl fun j _ => ?_
  rw [truncf_apply, truncf_apply, pay1_apply]

end Cert.KernelIdeal.RowValue

end
-- ==== Proof.Arrays.lean ====
/-
  The retrieval's two results as whole arrays.

  For a query array `q` of `B` rows, a key bank `K` and a value bank `V` of `M` rows each: entry `(b, j)` of the
  weights array is the softmax weight of key `j` for query row `b`, and entry `(b, d)` of the output array is the
  read-out at `d` for query row `b`. Every row of either result depends on the one query row of the same number
  and on the whole banks, which is what lets a program compute the rows block by block.
-/
import Idealize.ShloMosaic.Lib.ValueIdx
import proofs.«106904_j88210038325293_1_alg».proof.Proof.Spec

noncomputable section

namespace Cert.Retrieval

open Idealize.ShloMosaic Idealize.ShloMosaic.ValueIdx

variable {B n M D : ℕ}

/-- The softmax weights of every query row. -/
def weightsArr (q : (⟨2, ![B, n]⟩ : Shape).Idx → EReal) (K : (⟨2, ![M, n]⟩ : Shape).Idx → EReal) :
    (⟨2, ![B, M]⟩ : Shape).Idx → EReal :=
  fun i => weight (fun k => q (ix2 (i 0) k)) (fun j k => K (ix2 j k)) (i 1)

/-- The retrieved rows of every query row. -/
def outputArr (q : (⟨2, ![B, n]⟩ : Shape).Idx → EReal) (K : (⟨2, ![M, n]⟩ : Shape).Idx → EReal)
    (V : (⟨2, ![M, D]⟩ : Shape).Idx → EReal) : (⟨2, ![B, D]⟩ : Shape).Idx → EReal :=
  fun i => readout (fun k => q (ix2 (i 0) k)) (fun j k => K (ix2 j k)) (fun j d => V (ix2 j d)) (i 1)

theorem weightsArr_apply (q : (⟨2, ![B, n]⟩ : Shape).Idx → EReal) (K : (⟨2, ![M, n]⟩ : Shape).Idx → EReal)
    (b : Fin B) (j : Fin M) :
    weightsArr q K (ix2 b j) = weight (fun k => q (ix2 b k)) (fun j' k => K (ix2 j' k)) j := rfl

theorem outputArr_apply (q : (⟨2, ![B, n]⟩ : Shape).Idx → EReal) (K : (⟨2, ![M, n]⟩ : Shape).Idx → EReal)
    (V : (⟨2, ![M, D]⟩ : Shape).Idx → EReal) (b : Fin B) (d : Fin D) :
    outputArr q K V (ix2 b d)
      = readout (fun k => q (ix2 b k)) (fun j' k => K (ix2 j' k)) (fun j' d' => V (ix2 j' d')) d := rfl

end Cert.Retrieval

end
-- ==== Proof.KernelArrays.lean ====
/-
  The kernel's two result arrays after the run, as whole-array functions of its arguments.

  The grid walks the query array in blocks of 1024 rows: at point `t` the body sees rows `1024·t … 1024·t + 1023` of
  the queries and the whole key and value banks, and writes back rows `1024·t …` of the weights and of the output.
  Since a row of either result depends only on the query row of the same number and on the banks, what point `t`
  writes back is block `t` of the whole-array result; the 128 blocks tile the arrays, so after the run each array
  holds the whole-array result.
-/
import proofs.«106904_j88210038325293_1_alg».proof.Proof.Gen.KernelIdeal.Frame
import proofs.«106904_j88210038325293_1_alg».proof.Proof.KernelRow
import proofs.«106904_j88210038325293_1_alg».proof.Proof.Arrays
import Idealize.ShloMosaic.Lib.Pipeline.Value

set_option maxRecDepth 16384

noncomputable section

namespace Cert.KernelIdeal.ArrayValue

open Idealize.ShloMosaic Idealize.ShloMosaic.TcCoe Idealize.ShloMosaic.ValueIdx Idealize.SL.Sem
open Cert.KernelIdeal Cert.KernelIdeal.Gen Cert.KernelIdeal.RowValue Cert.Retrieval

variable (m : (ℓ : Loc nD τ sig) → Buf (Elt Ideal) ℓ)

theorem zero_offsets : (![0, 0] : Fin 2 → Nat) = fun _ => 0 := funext fun a => by fin_cases a <;> rfl

/-- The printed index maps over the grid: the query, output and weights windows are at block row `t`, block
    column 0; the two banks are always at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-! ### The input blocks at a point -/

/-- The query block at point `t` holds rows `1024·t + p` of the query array. -/
theorem queryBlock_apply (c : Dev nD) (t : Fin cfg0.N) (p : Fin 1024) (k : Fin 256) (i : S131072x256.Idx)
    (h0 : (i 0).val = t.val * 1024 + p.val) (h1 : (i 1).val = k.val) :
    (iblk m c 0 t : Vec Ideal S1024x256 .f32) (ix2 p k) = (V m c main_arg0 : S131072x256.Idx → EReal) i := by
  obtain ⟨e0, e1, -⟩ := idx_facts t
  unfold iblk
  rw [View.read_apply]
  show V m c main_arg0 _ = V m c main_arg0 i
  refine congrArg _ (funext fun a => Fin.ext ?_)
  match a with
  | ⟨0, _⟩ => show win0_0.index t (0 : Fin 2) * 1024 + 1 * p.val = (i 0).val; rw [e0, h0]; omega
  | ⟨1, _⟩ => show win0_0.index t (1 : Fin 2) * 256 + 1 * k.val = (i 1).val; rw [e1, h1]; omega

/-- The key block at every point is the whole key bank. -/
theorem keyBlock_apply (c : Dev nD) (t : Fin cfg0.N) (j : Fin 512) (k : Fin 256) :
    (iblk m c 1 t : Vec Ideal S512x256 .f32) (ix2 j k) = (V m c main_arg1 : S512x256.Idx → EReal) (ix2 j k) := by
  obtain ⟨-, -, e0, e1, -⟩ := idx_facts t
  unfold iblk
  rw [View.read_apply]
  show V m c main_arg1 _ = V m c main_arg1 (ix2 j k)
  refine congrArg _ (funext fun a => Fin.ext ?_)
  match a with
  | ⟨0, _⟩ => show win0_1.index t (0 : Fin 2) * 512 + 1 * j.val = j.val; rw [e0]; omega
  | ⟨1, _⟩ => show win0_1.index t (1 : Fin 2) * 256 + 1 * k.val = k.val; rw [e1]; omega

/-- The value block at every point is the whole value bank. -/
theorem valueBlock_apply (c : Dev nD) (t : Fin cfg0.N) (j : Fin 512) (d : Fin 256) :
    (iblk m c 2 t : Vec Ideal S512x256 .f32) (ix2 j d) = (V m c main_arg2 : S512x256.Idx → EReal) (ix2 j d) := by
  obtain ⟨-, -, -, -, e0, e1, -⟩ := idx_facts t
  unfold iblk
  rw [View.read_apply]
  show V m c main_arg2 _ = V m c main_arg2 (ix2 j d)
  refine congrArg _ (funext fun a => Fin.ext ?_)
  match a with
  | ⟨0, _⟩ => show win0_2.index t (0 : Fin 2) * 512 + 1 * j.val = j.val; rw [e0]; omega
  | ⟨1, _⟩ => show win0_2.index t (1 : Fin 2) * 256 + 1 * d.val = d.val; rw [e1]; omega

/-! ### What a point stores is a block of the whole-array results -/

/-- The weights a point stores, at block entry `y`, are the whole-array weights at row `1024·t + y₀`. -/
theorem weights_point (c : Dev nD) (t : Fin cfg0.N) (y : S1024x512.Idx) (i : S131072x512.Idx)
    (h0 : (i 0).val = t.val * 1024 + (y 0).val) (h1 : (i 1).val = (y 1).val) :
    k0_pay1 (iblk m c 0 t) (iblk m c 1 t) y
      = weightsArr (V m c main_arg0 : S131072x256.Idx → EReal) (V m c main_arg1 : S512x256.Idx → EReal) i := by
  obtain ⟨p, j, rfl⟩ : ∃ (p : Fin 1024) (j : Fin 512), y = ix2 p j := ⟨y 0, y 1, eq_ix2 y⟩
  obtain ⟨b, j', rfl⟩ : ∃ (b : Fin 131072) (j' : Fin 512), i = ix2 b j' := ⟨i 0, i 1, eq_ix2 i⟩
  obtain rfl : j' = j := Fin.ext h1
  refine (pay1_apply (iblk m c 0 t) (iblk m c 1 t) p j').trans ?_
  rw [weightsArr_apply]
  have eq : (fun k => (iblk m c 0 t : Vec Ideal S1024x256 .f32) (ix2 p k))
      = fun k => (V m c main_arg0 : S131072x256.Idx → EReal) (ix2 b k) :=
    funext fun k => queryBlock_apply m c t p k (ix2 b k) h0 rfl
  have ek : (fun j k => (iblk m c 1 t : Vec Ideal S512x256 .f32) (ix2 j k))
      = fun j k => (V m c main_arg1 : S512x256.Idx → EReal) (ix2 j k) :=
    funext fun j => funext fun k => keyBlock_apply m c t j k
  exact congrArg₂ (fun q K => weight q K j') eq ek

/-- The output a point stores, at block entry `y`, is the whole-array output at row `1024·t + y₀`. -/
theorem output_point (c : Dev nD) (t : Fin cfg0.N) (y : S1024x256.Idx) (i : S131072x256.Idx)
    (h0 : (i 0).val = t.val * 1024 + (y 0).val) (h1 : (i 1).val = (y 1).val) :
    k0_pay2 (iblk m c 0 t) (iblk m c 1 t) (iblk m c 2 t) y
      = outputArr (V m c main_arg0 : S131072x256.Idx → EReal) (V m c main_arg1 : S512x256.Idx → EReal)
          (V m c main_arg2 : S512x256.Idx → EReal) i := by
  obtain ⟨p, d, rfl⟩ : ∃ (p : Fin 1024) (d : Fin 256), y = ix2 p d := ⟨y 0, y 1, eq_ix2 y⟩
  obtain ⟨b, d', rfl⟩ : ∃ (b : Fin 131072) (d' : Fin 256), i = ix2 b d' := ⟨i 0, i 1, eq_ix2 i⟩
  obtain rfl : d' = d := Fin.ext h1
  refine (pay2_apply (iblk m c 0 t) (iblk m c 1 t) (iblk m c 2 t) p d').trans ?_
  rw [outputArr_apply]
  have eq : (fun k => (iblk m c 0 t : Vec Ideal S1024x256 .f32) (ix2 p k))
      = fun k => (V m c main_arg0 : S131072x256.Idx → EReal) (ix2 b k) :=
    funext fun k => queryBlock_apply m c t p k (ix2 b k) h0 rfl
  have ek : (fun j k => (iblk m c 1 t : Vec Ideal S512x256 .f32) (ix2 j k))
      = fun j k => (V m c main_arg1 : S512x256.Idx → EReal) (ix2 j k) :=
    funext fun j => funext fun k => keyBlock_apply m c t j k
  have ev : (fun j d => (iblk m c 2 t : Vec Ideal S512x256 .f32) (ix2 j d))
      = fun j d => (V m c main_arg2 : S512x256.Idx → EReal) (ix2 j d) :=
    funext fun j => funext fun d => valueBlock_apply m c t j d
  rw [eq, ek, ev]

/-- What point `t` writes back to the weights array is block `t` of the whole-array weights. -/
theorem flushed_weights (c : Dev nD) (t : Fin cfg0.N) :
    (dats m 0 c).flushed 4 t = ((cfg0.win 4).blk t).view.read (Elt Ideal)
      (weightsArr (V m c main_arg0 : S131072x256.Idx → EReal) (V m c main_arg1 : S512x256.Idx → EReal)) := by
  obtain ⟨-, -, -, -, -, -, -, -, e0, e1⟩ := idx_facts t
  show (cfg0.win 4).cut (grid0.coords t) ((dats m 0 c).after 4 t) = _
  rw [after0_4]
  unfold out0_4
  rw [View.canon_unit_zero zero_offsets]
  simp only [View.ld_unit_zero (S := S1024x256) zero_offsets, View.ld_unit_zero (S := S512x256) zero_offsets]
  funext y
  refine weights_point m c t y _ ?_ ?_
  · show win0_4.index t (0 : Fin 2) * 1024 + 1 * (y 0).val = t.val * 1024 + (y 0).val
    rw [e0]; omega
  · show win0_4.index t (1 : Fin 2) * 512 + 1 * (y 1).val = (y 1).val
    rw [e1]; omega

/-- What point `t` writes back to the output array is block `t` of the whole-array output. -/
theorem flushed_output (c : Dev nD) (t : Fin cfg0.N) :
    (dats m 0 c).flushed 3 t = ((cfg0.win 3).blk t).view.read (Elt Ideal)
      (outputArr (V m c main_arg0 : S131072x256.Idx → EReal) (V m c main_arg1 : S512x256.Idx → EReal)
        (V m c main_arg2 : S512x256.Idx → EReal)) := by
  obtain ⟨-, -, -, -, -, -, e0, e1, -⟩ := idx_facts t
  show (cfg0.win 3).cut (grid0.coords t) ((dats m 0 c).after 3 t) = _
  rw [after0_3]
  unfold out0_3
  rw [View.canon_unit_zero zero_offsets]
  simp only [View.ld_unit_zero (S := S1024x256) zero_offsets, View.ld_unit_zero (S := S512x256) zero_offsets]
  funext y
  refine output_point m c t y _ ?_ ?_
  · show win0_3.index t (0 : Fin 2) * 1024 + 1 * (y 0).val = t.val * 1024 + (y 0).val
    rw [e0]; omega
  · show win0_3.index t (1 : Fin 2) * 256 + 1 * (y 1).val = (y 1).val
    rw [e1]; omega

/-! ### The blocks tile the arrays -/

theorem mem_weightsBlock (t : Fin cfg0.N) (i : S131072x512.Idx) :
    i ∈ ((cfg0.win 4).blk t).view.set ↔ ∀ a : Fin 2, win0_4.index t a * S1024x512.size a ≤ (i a).val
      ∧ (i a).val < win0_4.index t a * S1024x512.size a + S1024x512.size a := by
  show i ∈ ((View.whole main_v0_1).slice (win0_4.rect t)).set ↔ _
  rw [View.set_slice_whole, Rect.mem_set_unit]
  exact Iff.rfl

theorem mem_outputBlock (t : Fin cfg0.N) (i : S131072x256.Idx) :
    i ∈ ((cfg0.win 3).blk t).view.set ↔ ∀ a : Fin 2, win0_3.index t a * S1024x256.size a ≤ (i a).val
      ∧ (i a).val < win0_3.index t a * S1024x256.size a + S1024x256.size a := by
  show i ∈ ((View.whole main_v0_0).slice (win0_3.rect t)).set ↔ _
  rw [View.set_slice_whole, Rect.mem_set_unit]
  exact Iff.rfl

/-- Row `r` of the weights array is in the block of point `r / 1024`. -/
theorem cover_weights (i : S131072x512.Idx) :
    ∃ t : Fin cfg0.N, (cfg0.win 4).flush t = true ∧ i ∈ ((cfg0.win 4).blk t).view.set := by
  have hi0 : (i 0).val < 131072 := (i 0).isLt
  have hi1 : (i 1).val < 512 := (i 1).isLt
  have hN : cfg0.N = 128 := N_0
  have ht : (i 0).val / 1024 < cfg0.N := by rw [hN]; omega
  obtain ⟨-, -, -, -, -, -, -, -, e0, e1⟩ := idx_facts ⟨(i 0).val / 1024, ht⟩
  refine ⟨⟨(i 0).val / 1024, ht⟩, flush0_4 _, ?_⟩
  rw [mem_weightsBlock]
  intro a
  match a with
  | ⟨0, _⟩ =>
    show win0_4.index ⟨(i 0).val / 1024, ht⟩ (0 : Fin 2) * 1024 ≤ (i 0).val
      ∧ (i 0).val < win0_4.index ⟨(i 0).val / 1024, ht⟩ (0 : Fin 2) * 1024 + 1024
    rw [e0]; show (i 0).val / 1024 * 1024 ≤ (i 0).val ∧ (i 0).val < (i 0).val / 1024 * 1024 + 1024; omega
  | ⟨1, _⟩ =>
    show win0_4.index ⟨(i 0).val / 1024, ht⟩ (1 : Fin 2) * 512 ≤ (i 1).val
      ∧ (i 1).val < win0_4.index ⟨(i 0).val / 1024, ht⟩ (1 : Fin 2) * 512 + 512
    rw [e1]; omega

/-- Row `r` of the output array is in the block of point `r / 1024`. -/
theorem cover_output (i : S131072x256.Idx) :
    ∃ t : Fin cfg0.N, (cfg0.win 3).flush t = true ∧ i ∈ ((cfg0.win 3).blk t).view.set := by
  have hi0 : (i 0).val < 131072 := (i 0).isLt
  have hi1 : (i 1).val < 256 := (i 1).isLt
  have hN : cfg0.N = 128 := N_0
  have ht : (i 0).val / 1024 < cfg0.N := by rw [hN]; omega
  obtain ⟨-, -, -, -, -, -, e0, e1, -⟩ := idx_facts ⟨(i 0).val / 1024, ht⟩
  refine ⟨⟨(i 0).val / 1024, ht⟩, flush0_3 _, ?_⟩
  rw [mem_outputBlock]
  intro a
  match a with
  | ⟨0, _⟩ =>
    show win0_3.index ⟨(i 0).val / 1024, ht⟩ (0 : Fin 2) * 1024 ≤ (i 0).val
      ∧ (i 0).val < win0_3.index ⟨(i 0).val / 1024, ht⟩ (0 : Fin 2) * 1024 + 1024
    rw [e0]; show (i 0).val / 1024 * 1024 ≤ (i 0).val ∧ (i 0).val < (i 0).val / 1024 * 1024 + 1024; omega
  | ⟨1, _⟩ =>
    show win0_3.index ⟨(i 0).val / 1024, ht⟩ (1 : Fin 2) * 256 ≤ (i 1).val
      ∧ (i 1).val < win0_3.index ⟨(i 0).val / 1024, ht⟩ (1 : Fin 2) * 256 + 256
    rw [e1]; omega

/-! ### The arrays after the run -/

/-- The weights array ends holding the whole-array weights of the arguments. -/
theorem final_weights (c : Dev nD) :
    (dats m 0 c).arrAt 4 cfg0.N
      = weightsArr (V m c main_arg0 : S131072x256.Idx → EReal) (V m c main_arg1 : S512x256.Idx → EReal) :=
  (dats m 0 c).arrAt_eq_of_cover 4 _ (fun t _ => flushed_weights m c t) cover_weights

/-- The output array ends holding the whole-array output of the arguments. -/
theorem final_output (c : Dev nD) :
    (dats m 0 c).arrAt 3 cfg0.N
      = outputArr (V m c main_arg0 : S131072x256.Idx → EReal) (V m c main_arg1 : S512x256.Idx → EReal)
          (V m c main_arg2 : S512x256.Idx → EReal) :=
  (dats m 0 c).arrAt_eq_of_cover 3 _ (fun t _ => flushed_output m c t) cover_output

end Cert.KernelIdeal.ArrayValue

end
-- ==== Proof.Scene.lean ====
/-
  The scene-change flags: for consecutive query rows `r` and `r + 1`, whether the Euclidean distance between them is
  below the threshold word `0x3F4CCCCD` (`0.8`). Both programs compute it on the host with the same operations — the
  two row slices of the query array, their difference, its square, the row sum, the square root, the comparison —,
  so it is carried as one function of the query array and never opened.
-/
import Idealize.ShloMosaic.PureOps

noncomputable section

namespace Cert.Retrieval

open Idealize.ShloMosaic

variable {F : FTy → Type} [FloatOps F]

/-- The flags as one function of the query array (the shape facts are the caller's). -/
def sceneFlags (x : FVec F ⟨2, ![131072, 256]⟩ .f32)
    (hs1 : (⟨2, ![131072, 256]⟩ : Shape).Slices ![1, 0] ⟨2, ![131071, 256]⟩)
    (hs0 : (⟨2, ![131072, 256]⟩ : Shape).Slices ![0, 0] ⟨2, ![131071, 256]⟩)
    (hr : (⟨2, ![131071, 256]⟩ : Shape).ReducesTo [1] ⟨1, ![131071]⟩) (hu : 0 < (⟨0, ![]⟩ : Shape).numel)
    (hb : (⟨0, ![]⟩ : Shape).BroadcastsInDim ⟨1, ![131071]⟩ (![] : Fin 0 → Fin 1)) : IVec ⟨1, ![131071]⟩ 1 :=
  cmpf .olt
    (Host.sqrt (Host.reduceAdd
      (mulf (subf (extractStridedSlice ⟨2, ![131071, 256]⟩ ![1, 0] x hs1) (extractStridedSlice ⟨2, ![131071, 256]⟩ ![0, 0] x hs0))
        (subf (extractStridedSlice ⟨2, ![131071, 256]⟩ ![1, 0] x hs1) (extractStridedSlice ⟨2, ![131071, 256]⟩ ![0, 0] x hs0)))
      (constant ⟨0, ![]⟩ .f32 0x00000000#32) hr hu))
    (broadcastInDim ⟨1, ![131071]⟩ ![] hb (constant ⟨0, ![]⟩ .f32 0x3F4CCCCD#32))

end Cert.Retrieval

end
-- ==== Proof.KernelRun.lean ====
/-
  The kernel program's run, with its three results named.

  Every weakly fair execution of the program ends with the output array at the whole-array read-out of the arguments,
  the weights array at the whole-array softmax weights, and the flags the host lines after the region compute from the
  query array (which the region only reads) at the scene-change flags of the query array; the arguments are unchanged.
-/
import proofs.«106904_j88210038325293_1_alg».proof.Proof.KernelArrays
import proofs.«106904_j88210038325293_1_alg».proof.Proof.Scene
import Idealize.ShloMosaic.Lib.StableHlo.Run

set_option maxRecDepth 16384

noncomputable section

namespace Cert.KernelIdeal.RunValue

open Idealize.ShloMosaic Idealize.ShloMosaic.TcCoe Idealize.SL.Sem Idealize.ShloMosaic.StableHlo
open Cert.KernelIdeal Cert.KernelIdeal.Gen Cert.KernelIdeal.ArrayValue Cert.Retrieval

variable (m : (ℓ : Loc nD τ sig) → Buf (Elt Ideal) ℓ) (ρ : Dev nD → PrngReg)

/-- The flags buffer is no array of the region: the lines after the region leave it at their composed term. -/
theorem flags_rest : main_v8 ∈ Pipeline.restRefs sig spec0 :=
  Pipeline.mem_restRefs_of main_v8 rfl (fun w => by fin_cases w <;> decide)

/-- The host lines after the region, run from the region's exit contents, leave the scene-change flags of the
    query array: they read only the query array, which the region left as it found it. -/
theorem flags_eq (c : Dev nD) :
    Pipeline.afterTail₀ cfgs (dats m) 0 (V0 m) [hostOps1] c main_v8
      = sceneFlags (F := Ideal) (m ((c.tc : Thread nD τ).loc main_arg0) : S131072x256.Idx → EReal) slices_S131072x256_S131071x256_1_0
          slices_S131072x256_S131071x256_0_0 reducesTo_S131071x256_S131071_d1 h_S_ bcast_S_S131071 := by
  unfold Pipeline.afterTail₀
  show StableHlo.after hostOps1 _ (Proc.devRef .tc main_v8) = _
  after_results
  have hq : Pipeline.withArrays (cfgs 0).spec c (V0 m c) (fun w => (dats m 0 c).arrAt w (cfgs 0).N)
      (Proc.devRef .tc main_arg0) = m ((c.tc : Thread nD τ).loc main_arg0) :=
    (Pipeline.withArrays_arr spec0 launch0.win.arr_inj c _ _ 0).trans
      (((dats m 0 c).arrAt_in 0 rfl _).trans ((A_eq m c 0).trans (V_main_arg0 m c)))
  rw [hq]
  rfl

/-- THE RUN: every weakly fair execution terminates with the output at the whole-array read-out, the weights at
    the whole-array softmax weights and the flags at the scene-change flags, of the arguments as launched, and the
    arguments unchanged. -/
theorem run : θ_run defs (onTc (τ := τ) (main (F := Ideal))) ⟨m, fun _ => 0, ρ⟩ (fun r => ∀ c : Dev nD,
      r.2.mem ((c.tc : Thread nD τ).loc main_v0_0)
        = outputArr (m ((c.tc : Thread nD τ).loc main_arg0) : S131072x256.Idx → EReal)
            (m ((c.tc : Thread nD τ).loc main_arg1) : S512x256.Idx → EReal)
            (m ((c.tc : Thread nD τ).loc main_arg2) : S512x256.Idx → EReal)
      ∧ r.2.mem ((c.tc : Thread nD τ).loc main_v0_1)
        = weightsArr (m ((c.tc : Thread nD τ).loc main_arg0) : S131072x256.Idx → EReal)
            (m ((c.tc : Thread nD τ).loc main_arg1) : S512x256.Idx → EReal)
      ∧ r.2.mem ((c.tc : Thread nD τ).loc main_v8)
        = sceneFlags (F := Ideal) (m ((c.tc : Thread nD τ).loc main_arg0) : S131072x256.Idx → EReal)
            slices_S131072x256_S131071x256_1_0 slices_S131072x256_S131071x256_0_0 reducesTo_S131071x256_S131071_d1 h_S_
            bcast_S_S131071
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨((h c).1 3).trans (final_output m c),
      ((h c).1 4).trans (final_weights m c),
      ((h c).2 main_v8 flags_rest).trans (flags_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.KernelIdeal.RunValue

end
-- ==== Proof.RefRow.lean ====
/-
  The reference's weights and read-out, read entry by entry at the extended reals.

  The reference normalises the rows of the whole query array and of the key bank, contracts the unit rows over the
  feature axis, scales, takes the softmax along the keys (the row maximum taken once more against `-∞`, which
  changes nothing) and contracts the weights with the value bank. Stage by stage, entry `(b, j)` of its weights is the
  softmax weight of key `j` for query row `b`, and entry `(b, d)` of its output is that row's read-out at `d`.
-/
import proofs.«106904_j88210038325293_1_alg».proof.Proof.Gen.ReferenceIdeal.Read
import proofs.«106904_j88210038325293_1_alg».proof.Proof.LibRowSoftmax
import proofs.«106904_j88210038325293_1_alg».proof.Proof.Spec

noncomputable section

open scoped BigOperators

namespace Cert.ReferenceIdeal.RowValue

open Idealize.ShloMosaic Idealize.ShloMosaic.ValueIdx Cert.ReferenceIdeal Cert.ReferenceIdeal.Gen Cert.ReferenceIdeal.Read
  Cert.Retrieval

/-! ### The stages' index maps at coordinates -/

theorem idx_queryNorm (b : Fin 131072) (k k' : Fin 256) :
    idx_main_call0_v1 (idx_main_call0_v2 (idx_main_v3 (ix2 b k))) k' = ix2 b k' :=
  funext fun a => by match a with | ⟨0, _⟩ => rfl | ⟨1, _⟩ => rfl

theorem idx_keyNorm (j : Fin 512) (k k' : Fin 256) :
    idx_main_call1_v1 (idx_main_call1_v2 (idx_main_v8 (ix2 j k))) k' = ix2 j k' :=
  funext fun a => by match a with | ⟨0, _⟩ => rfl | ⟨1, _⟩ => rfl

theorem idx_simLeft (b : Fin 131072) (j : Fin 512) (k : Fin 256) : lidx_main_v10 (ix2 b j) k = ix2 b k :=
  funext fun a => by match a with | ⟨0, _⟩ => rfl | ⟨1, _⟩ => rfl

theorem idx_simRight (b : Fin 131072) (j : Fin 512) (k : Fin 256) : ridx_main_v10 (ix2 b j) k = ix2 j k :=
  funext fun a => by match a with | ⟨0, _⟩ => rfl | ⟨1, _⟩ => rfl

theorem idx_rowMax (b : Fin 131072) (j : Fin 512) : idx_main_v16 (idx_main_v17 (ix2 b j)) = ix1 b :=
  funext fun a => by match a with | ⟨0, _⟩ => rfl

theorem idx_rowSum (b : Fin 131072) (j : Fin 512) : idx_main_v21 (idx_main_v22 (ix2 b j)) = ix1 b :=
  funext fun a => by match a with | ⟨0, _⟩ => rfl

theorem idx_rowSumTerm (b : Fin 131072) (j : Fin 512) : idx_main_v20 (ix1 b) j = ix2 b j :=
  funext fun a => by match a with | ⟨0, _⟩ => rfl | ⟨1, _⟩ => rfl

theorem idx_outLeft (b : Fin 131072) (d : Fin 256) (j : Fin 512) : lidx_main_v24 (ix2 b d) j = ix2 b j :=
  funext fun a => by match a with | ⟨0, _⟩ => rfl | ⟨1, _⟩ => rfl

theorem idx_outRight (b : Fin 131072) (d : Fin 256) (j : Fin 512) : ridx_main_v24 (ix2 b d) j = ix2 j d :=
  funext fun a => by match a with | ⟨0, _⟩ => rfl | ⟨1, _⟩ => rfl

/-! ### The stages at an entry -/

variable (x0 : (⟨S131072x256, .f32⟩ : BufTy).Contents (Elt Ideal)) (x1 x2 : (⟨S512x256, .f32⟩ : BufTy).Contents (Elt Ideal))

/-- The normalised queries at `(b, k)`: entry `k` of row `b` over that row's clipped norm. -/
theorem unitQ_apply (b : Fin 131072) (k : Fin 256) :
    val_main_v4 (F := Ideal) x0 (ix2 b k) = unitRow (fun k => x0 (ix2 b k)) k := by
  rw [val_main_v4_apply, val_main_v3_apply, val_main_v2_apply, val_main_v1_apply, val_main_cst_apply, val_main_v0_apply,
    val_main_call0_v2_apply, val_main_call0_v1_apply, val_main_call0_cst_apply]
  simp only [val_main_call0_v0_apply, idx_queryNorm, Ideal.hostDivf_def, Ideal.maximumf_def, Ideal.hostUnary_sqrt_def,
    Ideal.ofBits_def, Ideal.mulf_def, Ideal.ofBits_zero_f32, zero_add]
  rfl

/-- The normalised keys at `(j, k)`: entry `k` of key row `j` over that row's clipped norm. -/
theorem unitK_apply (j : Fin 512) (k : Fin 256) :
    val_main_v9 (F := Ideal) x1 (ix2 j k) = unitRow (fun k => x1 (ix2 j k)) k := by
  rw [val_main_v9_apply, val_main_v8_apply, val_main_v7_apply, val_main_v6_apply, val_main_cst_0_apply, val_main_v5_apply,
    val_main_call1_v2_apply, val_main_call1_v1_apply, val_main_call1_cst_apply]
  simp only [val_main_call1_v0_apply, idx_keyNorm, Ideal.hostDivf_def, Ideal.maximumf_def, Ideal.hostUnary_sqrt_def,
    Ideal.ofBits_def, Ideal.mulf_def, Ideal.ofBits_zero_f32, zero_add]
  rfl

/-- The scaled similarities at `(b, j)`: the logit of key `j` for query row `b`. -/
theorem logits_apply (b : Fin 131072) (j : Fin 512) :
    val_main_v12 (F := Ideal) x0 x1 (ix2 b j) = logit (fun k => x0 (ix2 b k)) (fun j' k => x1 (ix2 j' k)) j := by
  rw [val_main_v12_apply, val_main_v11_apply, val_main_cst_1_apply, val_main_v10_apply]
  simp only [idx_simLeft, idx_simRight, unitQ_apply, unitK_apply, Ideal.mulf_def, Ideal.ofBits_def]
  rfl

/-- The row maximum the reference subtracts, at row `b`: the largest logit of that row. -/
theorem rowMax_apply (b : Fin 131072) :
    val_main_v15 (F := Ideal) x0 x1 (ix1 b) = rowMax (fun k => x0 (ix2 b k)) (fun j' k => x1 (ix2 j' k)) := by
  have hfold : val_main_v13 (F := Ideal) x0 x1 (ix1 b) = rowMax (fun k => x0 (ix2 b k)) (fun j' k => x1 (ix2 j' k)) := by
    have hR : S131072x512.Reduces [1] S131072 := by decide
    unfold val_main_v13
    refine (Host.reduce_eq_fold_single (FloatOps.maximumf (F := Ideal) (φ := .f32))
      (val_main_v12 (F := Ideal) x0 x1 : S131072x512.Idx → Ideal .f32) (val_main_cst_2 (F := Ideal) : S_.Idx → Ideal .f32)
      reducesTo_S131072x512_S131072_d1 hR h_S_ (ix1 b)).trans ?_
    refine congrArg (fun f => (Finset.univ : Finset (Fin 512)).fold max (Ideal.ofBits .f32 0xFF800000#32) f) (funext fun j => ?_)
    exact (congrArg (val_main_v12 (F := Ideal) x0 x1) (Cert.RowSoftmax.row_lift _ b j)).trans (logits_apply x0 x1 b _)
  rw [val_main_v15_apply, val_main_v14_apply, val_main_cst_3_apply, hfold]
  exact max_negInfW_rowMax _ _

/-- The exponentials at `(b, j)`. -/
theorem expo_apply (b : Fin 131072) (j : Fin 512) :
    val_main_v19 (F := Ideal) x0 x1 (ix2 b j) = expo (fun k => x0 (ix2 b k)) (fun j' k => x1 (ix2 j' k)) j := by
  rw [val_main_v19_apply, val_main_v18_apply, val_main_v17_apply, val_main_v16_apply, idx_rowMax, rowMax_apply, logits_apply]
  rfl

/-- The reference's weights at `(b, j)`: the softmax weight of key `j` for query row `b`. -/
theorem weight_apply (b : Fin 131072) (j : Fin 512) :
    val_main_v23 (F := Ideal) x0 x1 (ix2 b j) = weight (fun k => x0 (ix2 b k)) (fun j' k => x1 (ix2 j' k)) j := by
  rw [val_main_v23_apply, val_main_v22_apply, val_main_v21_apply, idx_rowSum, val_main_v20_apply, val_main_cst_4_apply]
  simp only [idx_rowSumTerm, expo_apply, Ideal.hostDivf_def, Ideal.ofBits_def, Ideal.ofBits_zero_f32, zero_add]
  rfl

/-- The reference's output at `(b, d)`: the read-out at `d` for query row `b`. -/
theorem readout_apply (b : Fin 131072) (d : Fin 256) :
    val_main_v24 (F := Ideal) x0 x1 x2 (ix2 b d)
      = readout (fun k => x0 (ix2 b k)) (fun j' k => x1 (ix2 j' k)) (fun j' d' => x2 (ix2 j' d')) d := by
  rw [val_main_v24_apply]
  simp only [idx_outLeft, idx_outRight, weight_apply]
  rfl

end Cert.ReferenceIdeal.RowValue

end
-- ==== Proof.RefArrays.lean ====
/-
  The reference's three results as whole-array functions of its arguments: its weights are the whole-array softmax
  weights, its output the whole-array read-out (entry by entry, from the stages read at an index), and its flags the
  scene-change flags of the query array (the same host operations, taken as one function).
-/
import proofs.«106904_j88210038325293_1_alg».proof.Proof.RefRow
import proofs.«106904_j88210038325293_1_alg».proof.Proof.Arrays
import proofs.«106904_j88210038325293_1_alg».proof.Proof.Scene

noncomputable section

namespace Cert.ReferenceIdeal.ArrayValue

open Idealize.ShloMosaic Idealize.ShloMosaic.ValueIdx Cert.ReferenceIdeal Cert.ReferenceIdeal.Gen Cert.ReferenceIdeal.Read
  Cert.ReferenceIdeal.RowValue Cert.Retrieval

variable (x0 : (⟨S131072x256, .f32⟩ : BufTy).Contents (Elt Ideal)) (x1 x2 : (⟨S512x256, .f32⟩ : BufTy).Contents (Elt Ideal))

/-- The reference's weights are the whole-array weights. -/
theorem weights_eq : val_main_v23 (F := Ideal) x0 x1
    = weightsArr (x0 : S131072x256.Idx → EReal) (x1 : S512x256.Idx → EReal) := funext fun i => by
  obtain ⟨b, j, rfl⟩ : ∃ (b : Fin 131072) (j : Fin 512), i = ix2 b j := ⟨i 0, i 1, eq_ix2 i⟩
  exact weight_apply x0 x1 b j

/-- The reference's output is the whole-array output. -/
theorem output_eq : val_main_v24 (F := Ideal) x0 x1 x2
    = outputArr (x0 : S131072x256.Idx → EReal) (x1 : S512x256.Idx → EReal) (x2 : S512x256.Idx → EReal) :=
  funext fun i => by
    obtain ⟨b, d, rfl⟩ : ∃ (b : Fin 131072) (d : Fin 256), i = ix2 b d := ⟨i 0, i 1, eq_ix2 i⟩
    exact readout_apply x0 x1 x2 b d

/-- The reference's flags are the scene-change flags of the query array. -/
theorem flags_eq : val_main_v30 (F := Ideal) x0
    = sceneFlags (F := Ideal) (x0 : S131072x256.Idx → EReal) slices_S131072x256_S131071x256_1_0 slices_S131072x256_S131071x256_0_0
        reducesTo_S131071x256_S131071_d1 h_S_ bcast_S_S131071 :=
  (val_main_v30_eq x0).symm.trans rfl

end Cert.ReferenceIdeal.ArrayValue

end
-- ==== Proof.lean ====
/-
  Memory retrieval by cosine similarity: a Pallas kernel against its jnp reference, at the extended reals.

  For a query array `q` [131072, 256] and banks of 512 keys and values [512, 256]: every query row and every key row
  is divided by its Euclidean norm (clipped below at the float word of 1e-12); the logits are the inner products of the
  unit rows times 10; the weights are the row softmax of the logits (maximum subtracted first); the output is the
  weights times the values. A third result flags consecutive query rows closer than 0.8.

  The kernel walks the queries in 128 blocks of 1024 rows with the banks resident, rounds the matrix products'
  operands to bf16 (the identity on the extended reals), and stores a weights block and an output block per point; the
  flags are host lines after the region. The reference computes the same formulas on whole arrays (its row maximum is
  taken once more against -∞, which changes nothing). Because a row of either result depends on the one query row of
  the same number and on the banks, each stored block is a block of the whole-array result (Proof/KernelArrays.lean
  over Proof/KernelRow.lean), the blocks tile the arrays, and the reference's stages read entry by entry are the same
  row formulas (Proof/RefRow.lean, Proof/RefArrays.lean; the formulas are Proof/Spec.lean's). No law of arithmetic
  beyond the operations' own definitions joins the two sides — the sums run over the same index sets in both — so the
  finiteness of the inputs is never used. The frames are the generated ones; the ideal pass rewrote nothing.
-/
import proofs.«106904_j88210038325293_1_alg».proof.Defs
import proofs.«106904_j88210038325293_1_alg».proof.Proof.Gen.Kernel
import proofs.«106904_j88210038325293_1_alg».proof.Proof.Gen.Kernel.Skeleton
import proofs.«106904_j88210038325293_1_alg».proof.Proof.Gen.Kernel.Launch
import proofs.«106904_j88210038325293_1_alg».proof.Proof.Gen.Kernel.Points
import proofs.«106904_j88210038325293_1_alg».proof.Proof.Gen.Kernel.Frame
import proofs.«106904_j88210038325293_1_alg».proof.Proof.Gen.KernelIdeal
import proofs.«106904_j88210038325293_1_alg».proof.Proof.Gen.KernelIdeal.Skeleton
import proofs.«106904_j88210038325293_1_alg».proof.Proof.Gen.KernelIdeal.Launch
import proofs.«106904_j88210038325293_1_alg».proof.Proof.Gen.KernelIdeal.Points
import proofs.«106904_j88210038325293_1_alg».proof.Proof.Gen.KernelIdeal.Frame
import proofs.«106904_j88210038325293_1_alg».proof.Proof.Gen.ReferenceIdeal
import proofs.«106904_j88210038325293_1_alg».proof.Proof.Gen.Pre_finite_inputs
import proofs.«106904_j88210038325293_1_alg».proof.Proof.Gen.ReferenceIdeal.Run
import proofs.«106904_j88210038325293_1_alg».proof.Proof.Gen.ReferenceIdeal.Read
import proofs.«106904_j88210038325293_1_alg».proof.Proof.KernelRun
import proofs.«106904_j88210038325293_1_alg».proof.Proof.RefArrays
import Idealize.ShloMosaic.Adequacy
import Idealize.ShloMosaic.Init

noncomputable section

namespace Cert.Proof

open Idealize.ShloMosaic Idealize.SL.Sem Cert.Retrieval

/-- The word-level kernel program runs and leaves its arguments as they were. -/
theorem frame_kernel : Cert.frame_Kernel := fun m ρ _ => Cert.Kernel.Gen.frame m ρ

/-- So does the kernel program read at the extended reals. -/
theorem frame_kernelIdeal : Cert.frame_KernelIdeal := fun m ρ _ => Cert.KernelIdeal.Gen.frame m ρ

/-- The reference runs and leaves its arguments as they were: its run with the results dropped. -/
theorem frame_referenceIdeal : Cert.frame_ReferenceIdeal := fun m ρ _ =>
  (θ_run Cert.ReferenceIdeal.defs _ _).mono (fun _ h c => (h c).2.2.2) (Cert.ReferenceIdeal.Value.run (F := Ideal) m ρ)

/-- The ideal pass rewrote no operation of the kernel. -/
theorem preserves : Cert.preserves_Kernel_KernelIdeal := trivial

/-- From memories agreeing on the three arguments both programs end with the output at the whole-array read-out,
    the weights at the whole-array softmax weights and the flags at the scene-change flags of those arguments. -/
theorem algebraic : Cert.algebraic_KernelIdeal_ReferenceIdeal := by
  intro m ρ m' ρ' _ hagree
  refine ⟨_, _, _, Cert.KernelIdeal.RunValue.run m ρ, ?_⟩
  refine (θ_run Cert.ReferenceIdeal.defs _ _).mono (fun _ h c => ?_) (Cert.ReferenceIdeal.Value.run (F := Ideal) m' ρ')
  obtain ⟨h0, h1, h2, ha⟩ := h c
  obtain ⟨g0, g1, g2⟩ := hagree c
  refine ⟨?_, ?_, ?_, ha⟩
  · rw [h0, Cert.ReferenceIdeal.Read.val_main_v24_eq, Cert.ReferenceIdeal.ArrayValue.output_eq, g0, g1, g2]
  · rw [h1, Cert.ReferenceIdeal.Read.val_main_v23_eq, Cert.ReferenceIdeal.ArrayValue.weights_eq, g0, g1]
  · rw [h2, Cert.ReferenceIdeal.Read.val_main_v30_eq, Cert.ReferenceIdeal.ArrayValue.flags_eq, g0]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
